-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S6144 : Shape := ⟨1, ![6144]⟩
abbrev S262144 : Shape := ⟨1, ![262144]⟩
abbrev S_ : Shape := ⟨0, ![]⟩

class Facts : Prop where
  bcast_S_S6144 : S_.BroadcastsInDim S6144 (![] : Fin 0 → Fin S6144.rank)
  reducesTo_S6144_S_d0 : S6144.ReducesTo [0] S_
  h_S_ : 0 < S_.numel
  bcast_S_S262144 : S_.BroadcastsInDim S262144 (![] : Fin 0 → Fin S262144.rank)
  reducesTo_S262144_S_d0 : S262144.ReducesTo [0] S_

variable [Facts]

def fn_part1 {F : FTy → Type} [FloatOps F] (main_v13 : IVec S_ 1) (main_v16 : IVec S262144 1) : IVec S_ 1 :=
  let main_c_5 : IVec S_ 1 := constantI S_ 1 1#1
  let main_v17 : IVec S_ 1 := (fun x v => Host.reduce IntOp.andi x v reducesTo_S262144_S_d0 h_S_) main_v16 main_c_5
  let main_v18 : IVec S_ 1 := andi main_v13 main_v17
  main_v18

def fn {F : FTy → Type} [FloatOps F] (main_arg0 : FVec F S6144 .f32) (main_arg1 : FVec F S262144 .f32) (main_arg2 : FVec F S6144 .f32) (main_arg3 : FVec F S262144 .f32) (main_arg4 : IVec S262144 32) (main_arg5 : IVec S262144 32) : IVec S_ 1 :=
  let main_v0 : FVec F S6144 .f32 := Host.absf main_arg0
  let main_cst : FVec F S_ .f32 := constant S_ .f32 0x7F800000#32
  let main_v1 : FVec F S6144 .f32 := broadcastInDim S6144 ![] bcast_S_S6144 main_cst
  let main_v2 : IVec S6144 1 := cmpf .olt main_v0 main_v1
  let main_c : IVec S_ 1 := constantI S_ 1 1#1
  let main_v3 : IVec S_ 1 := (fun x v => Host.reduce IntOp.andi x v reducesTo_S6144_S_d0 h_S_) main_v2 main_c
  let main_v4 : FVec F S262144 .f32 := Host.absf main_arg1
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S6144 .f32 := Host.absf main_arg2
  let main_cst_2 : FVec F S_ .f32 := constant S_ .f32 0x7F800000#32
  let main_v10 : FVec F S6144 .f32 := broadcastInDim S6144 ![] bcast_S_S6144 main_cst_2
  let main_v11 : IVec S6144 1 := cmpf .olt main_v9 main_v10
  let main_c_3 : IVec S_ 1 := constantI S_ 1 1#1
  let main_v12 : IVec S_ 1 := (fun x v => Host.reduce IntOp.andi x v reducesTo_S6144_S_d0 h_S_) main_v11 main_c_3
  let main_v13 : IVec S_ 1 := andi main_v8 main_v12
  let main_v14 : FVec F S262144 .f32 := Host.absf main_arg3
  let main_cst_4 : FVec F S_ .f32 := constant S_ .f32 0x7F800000#32
  let main_v15 : FVec F S262144 .f32 := broadcastInDim S262144 ![] bcast_S_S262144 main_cst_4
  let main_v16 : IVec S262144 1 := cmpf .olt main_v14 main_v15
  fn_part1 (F := F) main_v13 main_v16
-- ==== Kernel.lean ====
abbrev S6144 : Shape := ⟨1, ![6144]⟩
abbrev S262144 : Shape := ⟨1, ![262144]⟩
abbrev S48x128 : Shape := ⟨2, ![48, 128]⟩
abbrev S2048x128 : Shape := ⟨2, ![2048, 128]⟩
abbrev S256x128 : Shape := ⟨2, ![256, 128]⟩
abbrev S_ : Shape := ⟨0, ![]⟩
abbrev S6144x6144 : Shape := ⟨2, ![6144, 6144]⟩
abbrev S262144x1 : Shape := ⟨2, ![262144, 1]⟩
abbrev S262144x2 : Shape := ⟨2, ![262144, 2]⟩

abbrev nBuf : Space → Nat
  | .hbm => 52
  | .vmem => 9
  | .smem => 0
  | _ => 0

abbrev bufTy : (tb : Table) → Fin (tcTables nBuf tb) → BufTy
  | .hbm, ⟨0, _⟩ => ⟨S6144, .f32⟩
  | .hbm, ⟨1, _⟩ => ⟨S262144, .f32⟩
  | .hbm, ⟨2, _⟩ => ⟨S6144, .f32⟩
  | .hbm, ⟨3, _⟩ => ⟨S262144, .f32⟩
  | .hbm, ⟨4, _⟩ => ⟨S262144, .i32⟩
  | .hbm, ⟨5, _⟩ => ⟨S262144, .i32⟩
  | .hbm, ⟨6, _⟩ => ⟨S48x128, .f32⟩
  | .hbm, ⟨7, _⟩ => ⟨S48x128, .f32⟩
  | .hbm, ⟨8, _⟩ => ⟨S48x128, .f32⟩
  | .hbm, ⟨9, _⟩ => ⟨S6144, .f32⟩
  | .hbm, ⟨10, _⟩ => ⟨S2048x128, .f32⟩
  | .hbm, ⟨11, _⟩ => ⟨S2048x128, .f32⟩
  | .hbm, ⟨12, _⟩ => ⟨S2048x128, .f32⟩
  | .hbm, ⟨13, _⟩ => ⟨S262144, .f32⟩
  | .hbm, ⟨14, _⟩ => ⟨S_, .f32⟩
  | .hbm, ⟨15, _⟩ => ⟨S6144x6144, .f32⟩
  | .hbm, ⟨16, _⟩ => ⟨S_, .i32⟩
  | .hbm, ⟨17, _⟩ => ⟨S262144, .i32⟩
  | .hbm, ⟨18, _⟩ => ⟨S262144, .i1⟩
  | .hbm, ⟨19, _⟩ => ⟨S_, .i32⟩
  | .hbm, ⟨20, _⟩ => ⟨S262144, .i32⟩
  | .hbm, ⟨21, _⟩ => ⟨S262144, .i32⟩
  | .hbm, ⟨22, _⟩ => ⟨S262144, .i32⟩
  | .hbm, ⟨23, _⟩ => ⟨S_, .i32⟩
  | .hbm, ⟨24, _⟩ => ⟨S262144, .i32⟩
  | .hbm, ⟨25, _⟩ => ⟨S262144, .i1⟩
  | .hbm, ⟨26, _⟩ => ⟨S_, .i32⟩
  | .hbm, ⟨27, _⟩ => ⟨S262144, .i32⟩
  | .hbm, ⟨28, _⟩ => ⟨S262144, .i32⟩
  | .hbm, ⟨29, _⟩ => ⟨S262144, .i32⟩
  | .hbm, ⟨30, _⟩ => ⟨S262144x1, .i32⟩
  | .hbm, ⟨31, _⟩ => ⟨S262144x1, .i32⟩
  | .hbm, ⟨32, _⟩ => ⟨S262144x2, .i32⟩
  | .hbm, ⟨33, _⟩ => ⟨S6144x6144, .f32⟩
  | .hbm, ⟨34, _⟩ => ⟨S_, .i32⟩
  | .hbm, ⟨35, _⟩ => ⟨S262144, .i32⟩
  | .hbm, ⟨36, _⟩ => ⟨S262144, .i1⟩
  | .hbm, ⟨37, _⟩ => ⟨S_, .i32⟩
  | .hbm, ⟨38, _⟩ => ⟨S262144, .i32⟩
  | .hbm, ⟨39, _⟩ => ⟨S262144, .i32⟩
  | .hbm, ⟨40, _⟩ => ⟨S262144, .i32⟩
  | .hbm, ⟨41, _⟩ => ⟨S_, .i32⟩
  | .hbm, ⟨42, _⟩ => ⟨S262144, .i32⟩
  | .hbm, ⟨43, _⟩ => ⟨S262144, .i1⟩
  | .hbm, ⟨44, _⟩ => ⟨S_, .i32⟩
  | .hbm, ⟨45, _⟩ => ⟨S262144, .i32⟩
  | .hbm, ⟨46, _⟩ => ⟨S262144, .i32⟩
  | .hbm, ⟨47, _⟩ => ⟨S262144, .i32⟩
  | .hbm, ⟨48, _⟩ => ⟨S262144x1, .i32⟩
  | .hbm, ⟨49, _⟩ => ⟨S262144x1, .i32⟩
  | .hbm, ⟨50, _⟩ => ⟨S262144x2, .i32⟩
  | .hbm, ⟨51, _⟩ => ⟨S6144x6144, .f32⟩
  | .local _ .vmem, ⟨0, _⟩ => ⟨S48x128, .f32⟩
  | .local _ .vmem, ⟨1, _⟩ => ⟨S48x128, .f32⟩
  | .local _ .vmem, ⟨2, _⟩ => ⟨S48x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | _, _ => ⟨S6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S48x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S48x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S48x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S6144_S48x128 : S6144.ShapeCasts S48x128
  inb_S48x128_S48x128_0_0 : ∀ a, (![0, 0] : Fin 2 → Nat) a + S48x128.size a ≤ S48x128.size a
  h_S48x128 : 0 < S48x128.numel
  shapeCasts_S48x128_S48x128 : S48x128.ShapeCasts S48x128
  shapeCasts_S48x128_S6144 : S48x128.ShapeCasts S6144
  shapeCasts_S262144_S2048x128 : S262144.ShapeCasts S2048x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  shapeCasts_S2048x128_S262144 : S2048x128.ShapeCasts S262144
  bcast_S_S6144x6144 : S_.BroadcastsInDim S6144x6144 (![] : Fin 0 → Fin S6144x6144.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  scatter_S6144x6144_S262144x2_S262144_n_01_01_1_wf : ScatterDims.WF S6144x6144 S262144x2 S262144 [] [0, 1] [0, 1] 1
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S48x128.size a ≤ S48x128.size a
  hwx0_0 : ∀ i : grid0.Coords, EltTy.bits .f32 = 32 ∨ (Rect.block (s := S48x128) S48x128.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S48x128.size a ≤ S48x128.size a
  hwx0_1 : ∀ i : grid0.Coords, EltTy.bits .f32 = 32 ∨ (Rect.block (s := S48x128) S48x128.size (cc0_transform_1 i) (hinb0_1 i)).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S48x128.size a ≤ S48x128.size a
  hwx0_2 : ∀ i : grid0.Coords, EltTy.bits .f32 = 32 ∨ (Rect.block (s := S48x128) S48x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x128.size a ≤ S2048x128.size a
  hwx1_0 : ∀ i : grid1.Coords, EltTy.bits .f32 = 32 ∨ (Rect.block (s := S2048x128) S256x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S2048x128.size a
  hwx1_1 : ∀ i : grid1.Coords, EltTy.bits .f32 = 32 ∨ (Rect.block (s := S2048x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S2048x128.size a
  hwx1_2 : ∀ i : grid1.Coords, EltTy.bits .f32 = 32 ∨ (Rect.block (s := S2048x128) S256x128.size (cc1_transform_2 i) (hinb1_2 i)).WholeWords (EltTy.packing .f32)

variable [Facts₀]

def scatter_S6144x6144_S262144x2_S262144_n_01_01_1 : ScatterDims S6144x6144 S262144x2 S262144 where
  updateWindowDims := []
  insertedWindowDims := [0, 1]
  scatterDimsToOperandDims := [0, 1]
  indexVectorDim := 1
  wf := scatter_S6144x6144_S262144x2_S262144_n_01_01_1_wf

abbrev win0_0 : Pipeline.Window sig grid0 :=
  Pipeline.Window.ofSpec (Memref.whole main_v0) S48x128.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S48x128.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S48x128.size cc0_transform_2 reads0_2 true false 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S256x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S256x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S6144 : Shape := ⟨1, ![6144]⟩
abbrev S262144 : Shape := ⟨1, ![262144]⟩
abbrev S_ : Shape := ⟨0, ![]⟩
abbrev S6144x6144 : Shape := ⟨2, ![6144, 6144]⟩
abbrev S262144x1 : Shape := ⟨2, ![262144, 1]⟩
abbrev S262144x2 : Shape := ⟨2, ![262144, 2]⟩

abbrev nBuf : Space → Nat
  | .hbm => 88
  | .vmem => 0
  | .smem => 0
  | _ => 0

abbrev bufTy : (tb : Table) → Fin (tcTables nBuf tb) → BufTy
  | .hbm, ⟨0, _⟩ => ⟨S6144, .f32⟩
  | .hbm, ⟨1, _⟩ => ⟨S262144, .f32⟩
  | .hbm, ⟨2, _⟩ => ⟨S6144, .f32⟩
  | .hbm, ⟨3, _⟩ => ⟨S262144, .f32⟩
  | .hbm, ⟨4, _⟩ => ⟨S262144, .i32⟩
  | .hbm, ⟨5, _⟩ => ⟨S262144, .i32⟩
  | .hbm, ⟨6, _⟩ => ⟨S_, .f32⟩
  | .hbm, ⟨7, _⟩ => ⟨S6144, .f32⟩
  | .hbm, ⟨8, _⟩ => ⟨S6144, .f32⟩
  | .hbm, ⟨9, _⟩ => ⟨S6144, .f32⟩
  | .hbm, ⟨10, _⟩ => ⟨S6144, .f32⟩
  | .hbm, ⟨11, _⟩ => ⟨S_, .f32⟩
  | .hbm, ⟨12, _⟩ => ⟨S6144, .f32⟩
  | .hbm, ⟨13, _⟩ => ⟨S6144, .f32⟩
  | .hbm, ⟨14, _⟩ => ⟨S6144, .f32⟩
  | .hbm, ⟨15, _⟩ => ⟨S6144, .f32⟩
  | .hbm, ⟨16, _⟩ => ⟨S6144, .f32⟩
  | .hbm, ⟨17, _⟩ => ⟨S_, .f32⟩
  | .hbm, ⟨18, _⟩ => ⟨S6144, .f32⟩
  | .hbm, ⟨19, _⟩ => ⟨S6144, .f32⟩
  | .hbm, ⟨20, _⟩ => ⟨S6144, .f32⟩
  | .hbm, ⟨21, _⟩ => ⟨S6144, .f32⟩
  | .hbm, ⟨22, _⟩ => ⟨S_, .f32⟩
  | .hbm, ⟨23, _⟩ => ⟨S6144, .f32⟩
  | .hbm, ⟨24, _⟩ => ⟨S6144, .f32⟩
  | .hbm, ⟨25, _⟩ => ⟨S_, .f32⟩
  | .hbm, ⟨26, _⟩ => ⟨S6144, .f32⟩
  | .hbm, ⟨27, _⟩ => ⟨S6144, .f32⟩
  | .hbm, ⟨28, _⟩ => ⟨S_, .f32⟩
  | .hbm, ⟨29, _⟩ => ⟨S262144, .f32⟩
  | .hbm, ⟨30, _⟩ => ⟨S262144, .f32⟩
  | .hbm, ⟨31, _⟩ => ⟨S262144, .f32⟩
  | .hbm, ⟨32, _⟩ => ⟨S262144, .f32⟩
  | .hbm, ⟨33, _⟩ => ⟨S_, .f32⟩
  | .hbm, ⟨34, _⟩ => ⟨S262144, .f32⟩
  | .hbm, ⟨35, _⟩ => ⟨S262144, .f32⟩
  | .hbm, ⟨36, _⟩ => ⟨S262144, .f32⟩
  | .hbm, ⟨37, _⟩ => ⟨S262144, .f32⟩
  | .hbm, ⟨38, _⟩ => ⟨S262144, .f32⟩
  | .hbm, ⟨39, _⟩ => ⟨S_, .f32⟩
  | .hbm, ⟨40, _⟩ => ⟨S262144, .f32⟩
  | .hbm, ⟨41, _⟩ => ⟨S262144, .f32⟩
  | .hbm, ⟨42, _⟩ => ⟨S262144, .f32⟩
  | .hbm, ⟨43, _⟩ => ⟨S262144, .f32⟩
  | .hbm, ⟨44, _⟩ => ⟨S_, .f32⟩
  | .hbm, ⟨45, _⟩ => ⟨S262144, .f32⟩
  | .hbm, ⟨46, _⟩ => ⟨S262144, .f32⟩
  | .hbm, ⟨47, _⟩ => ⟨S_, .f32⟩
  | .hbm, ⟨48, _⟩ => ⟨S262144, .f32⟩
  | .hbm, ⟨49, _⟩ => ⟨S262144, .f32⟩
  | .hbm, ⟨50, _⟩ => ⟨S_, .f32⟩
  | .hbm, ⟨51, _⟩ => ⟨S6144x6144, .f32⟩
  | .hbm, ⟨52, _⟩ => ⟨S_, .i32⟩
  | .hbm, ⟨53, _⟩ => ⟨S262144, .i32⟩
  | .hbm, ⟨54, _⟩ => ⟨S262144, .i1⟩
  | .hbm, ⟨55, _⟩ => ⟨S_, .i32⟩
  | .hbm, ⟨56, _⟩ => ⟨S262144, .i32⟩
  | .hbm, ⟨57, _⟩ => ⟨S262144, .i32⟩
  | .hbm, ⟨58, _⟩ => ⟨S262144, .i32⟩
  | .hbm, ⟨59, _⟩ => ⟨S_, .i32⟩
  | .hbm, ⟨60, _⟩ => ⟨S262144, .i32⟩
  | .hbm, ⟨61, _⟩ => ⟨S262144, .i1⟩
  | .hbm, ⟨62, _⟩ => ⟨S_, .i32⟩
  | .hbm, ⟨63, _⟩ => ⟨S262144, .i32⟩
  | .hbm, ⟨64, _⟩ => ⟨S262144, .i32⟩
  | .hbm, ⟨65, _⟩ => ⟨S262144, .i32⟩
  | .hbm, ⟨66, _⟩ => ⟨S262144x1, .i32⟩
  | .hbm, ⟨67, _⟩ => ⟨S262144x1, .i32⟩
  | .hbm, ⟨68, _⟩ => ⟨S262144x2, .i32⟩
  | .hbm, ⟨69, _⟩ => ⟨S6144x6144, .f32⟩
  | .hbm, ⟨70, _⟩ => ⟨S_, .i32⟩
  | .hbm, ⟨71, _⟩ => ⟨S262144, .i32⟩
  | .hbm, ⟨72, _⟩ => ⟨S262144, .i1⟩
  | .hbm, ⟨73, _⟩ => ⟨S_, .i32⟩
  | .hbm, ⟨74, _⟩ => ⟨S262144, .i32⟩
  | .hbm, ⟨75, _⟩ => ⟨S262144, .i32⟩
  | .hbm, ⟨76, _⟩ => ⟨S262144, .i32⟩
  | .hbm, ⟨77, _⟩ => ⟨S_, .i32⟩
  | .hbm, ⟨78, _⟩ => ⟨S262144, .i32⟩
  | .hbm, ⟨79, _⟩ => ⟨S262144, .i1⟩
  | .hbm, ⟨80, _⟩ => ⟨S_, .i32⟩
  | .hbm, ⟨81, _⟩ => ⟨S262144, .i32⟩
  | .hbm, ⟨82, _⟩ => ⟨S262144, .i32⟩
  | .hbm, ⟨83, _⟩ => ⟨S262144, .i32⟩
  | .hbm, ⟨84, _⟩ => ⟨S262144x1, .i32⟩
  | .hbm, ⟨85, _⟩ => ⟨S262144x1, .i32⟩
  | .hbm, ⟨86, _⟩ => ⟨S262144x2, .i32⟩
  | .hbm, ⟨87, _⟩ => ⟨S6144x6144, .f32⟩
  | _, _ => ⟨S6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_7 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_cst_9 : Ref sig .tc := ⟨.hbm, 50, rfl⟩
abbrev main_v34 : Ref sig .tc := ⟨.hbm, 51, rfl⟩
abbrev main_c : Ref sig .tc := ⟨.hbm, 52, rfl⟩
abbrev main_v35 : Ref sig .tc := ⟨.hbm, 53, rfl⟩
abbrev main_v36 : Ref sig .tc := ⟨.hbm, 54, rfl⟩
abbrev main_c_10 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_11 : Ref sig .tc := ⟨.hbm, 59, rfl⟩
abbrev main_v40 : Ref sig .tc := ⟨.hbm, 60, rfl⟩
abbrev main_v41 : Ref sig .tc := ⟨.hbm, 61, rfl⟩
abbrev main_c_12 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_13 : Ref sig .tc := ⟨.hbm, 70, rfl⟩
abbrev main_v49 : Ref sig .tc := ⟨.hbm, 71, rfl⟩
abbrev main_v50 : Ref sig .tc := ⟨.hbm, 72, rfl⟩
abbrev main_c_14 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_15 : Ref sig .tc := ⟨.hbm, 77, rfl⟩
abbrev main_v54 : Ref sig .tc := ⟨.hbm, 78, rfl⟩
abbrev main_v55 : Ref sig .tc := ⟨.hbm, 79, rfl⟩
abbrev main_c_16 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩

abbrev nD : Nat := 1
abbrev τ : Topo := Topo.v7x

variable {F : FTy → Type} [FloatOps F]

class Facts₀ : Prop where
  bcast_S_S6144 : S_.BroadcastsInDim S6144 (![] : Fin 0 → Fin S6144.rank)
  bcast_S_S262144 : S_.BroadcastsInDim S262144 (![] : Fin 0 → Fin S262144.rank)
  bcast_S_S6144x6144 : S_.BroadcastsInDim S6144x6144 (![] : Fin 0 → Fin S6144x6144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  scatter_S6144x6144_S262144x2_S262144_n_01_01_1_wf : ScatterDims.WF S6144x6144 S262144x2 S262144 [] [0, 1] [0, 1] 1

variable [Facts₀]

def scatter_S6144x6144_S262144x2_S262144_n_01_01_1 : ScatterDims S6144x6144 S262144x2 S262144 where
  updateWindowDims := []
  insertedWindowDims := [0, 1]
  scatterDimsToOperandDims := [0, 1]
  indexVectorDim := 1
  wf := scatter_S6144x6144_S262144x2_S262144_n_01_01_1_wf

class Facts : Prop extends Facts₀ where

variable [Facts]
-- ==== Proof.Sample.lean ====
/-
  One relaxed Bernoulli sample as a function of a logit `x` and a uniform draw `u`, on the extended reals:

      sample x u = σ ((x + g) / 1),   g = -log (-log (u + ε) + ε),   σ y = 1 / (1 + e^(-y)),

  with ε the number the f32 pattern of 1e-10 denotes and the temperature equal to one.

  The kernel's body writes each negation as a difference from zero and applies the one-operation logistic; the
  reference writes each negation as a negation and spells the logistic out as negate, exponential, add one,
  reciprocal. On the extended reals `0 - y = -y` for every `y`, the infinite ones included; the logistic IS
  `1 / (1 + e^(-y))`; and the pattern of 1.0 is the number one. So both spellings are `sample` at every element,
  whatever the inputs: no law used here needs a finite argument. The pattern of ε is the same word on both sides and
  is never evaluated.
-/
import Idealize.ShloMosaic.PureOps.Ideal.Laws
import Idealize.ShloMosaic.Lib.IdealHost

noncomputable section

namespace Cert.Sampling

open Idealize.ShloMosaic

/-- ε, kept as the pattern both programs print. -/
def eps : EReal := Ideal.ofBits .f32 0x2EDBE6FF#32

/-- The sample drawn from logit `x` with uniform draw `u`. -/
def sample (x u : EReal) : EReal :=
  Ideal.logistic (Ideal.div (x + -(Ideal.log (-(Ideal.log (u + eps)) + eps))) 1)

/-- The kernel body's chain of vector operations, over any shape, is `sample` element by element: a difference
    from zero is a negation, and the pattern of 1.0 is one. -/
theorem kernel_spelling {s : Shape} (x u : FVec Ideal s .f32) :
    logistic (divf (addf x (subf (broadcast s (Scalar.ofBits (F := Ideal) .f32 0x00000000#32))
        (log (addf (subf (broadcast s (Scalar.ofBits (F := Ideal) .f32 0x00000000#32))
            (log (addf u (broadcast s (Scalar.ofBits (F := Ideal) .f32 0x2EDBE6FF#32)))))
          (broadcast s (Scalar.ofBits (F := Ideal) .f32 0x2EDBE6FF#32))))))
      (broadcast s (Scalar.ofBits (F := Ideal) .f32 0x3F800000#32)))
    = fun i => sample (x i) (u i) := by
  funext i
  simp only [logistic, divf, addf, subf, log, broadcast, Ideal.logistic_def, Ideal.divf_def, Ideal.addf_def,
    Ideal.subf_def, Ideal.log_def, Ideal.ofBits_def, Ideal.ofBits_zero_f32, Ideal.ofBits_one_f32, zero_sub,
    sample, eps]

/-- The reference's chain of host operations, over any shape, is `sample` element by element: the logistic is
    its own expansion, and the pattern of 1.0 is one. -/
theorem reference_spelling {s : Shape} (hb : (⟨0, ![]⟩ : Shape).BroadcastsInDim s ![]) (x u : FVec Ideal s .f32) :
    Host.divf (broadcastInDim s ![] hb (constant ⟨0, ![]⟩ .f32 0x3F800000#32))
      (addf (broadcastInDim s ![] hb (constant ⟨0, ![]⟩ .f32 0x3F800000#32))
        (Host.exp (Host.negf (Host.divf
          (addf x (Host.negf (Host.log (addf (Host.negf (Host.log
            (addf u (broadcastInDim s ![] hb (constant ⟨0, ![]⟩ .f32 0x2EDBE6FF#32)))))
            (broadcastInDim s ![] hb (constant ⟨0, ![]⟩ .f32 0x2EDBE6FF#32))))))
          (broadcastInDim s ![] hb (constant ⟨0, ![]⟩ .f32 0x3F800000#32))))))
    = fun i => sample (x i) (u i) := by
  funext i
  simp only [Host.divf, Host.exp, Host.negf, Host.log, addf, constant, ValueIdx.broadcastInDim_scalar_apply,
    Ideal.hostDivf_def, Ideal.addf_def, Ideal.hostUnary_exp_def, Ideal.hostUnary_log_def, Ideal.hostNegf_def,
    Ideal.negf_def, Ideal.ofBits_def, Ideal.ofBits_one_f32, sample, eps, Ideal.logistic]

end Cert.Sampling

end
-- ==== Proof.Blocks.lean ====
/-
  What each of the two pipelined regions leaves in its output array, as ONE function of its two input arrays.

  Each region runs the same body over row blocks of a two-dimensional array with 128 columns: the body loads its
  logits block and its draws block whole, computes `sample` element by element and stores the result whole. The
  three windows of a region (logits, draws, result) have the same block shape and the same index map, so grid point
  `t` writes back block `t` of the array `i ↦ sample (logits i) (draws i)`; the blocks tile the array, so that
  function is the whole array once every point has written back. Region 0 has one block of 48 rows (the whole
  array); region 1 has eight blocks of 256 rows. Both are stated at ANY contents `V` of the buffers at the region's
  entry, which is how the program's run uses them.
-/
import proofs.«109648_j56916906607129_1_alg».proof.Proof.Gen.KernelIdeal.Frame
import proofs.«109648_j56916906607129_1_alg».proof.Proof.Sample
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The body's whole-buffer rectangle starts at zero on both axes. -/
theorem zeros : (![0, 0] : Fin 2 → Nat) = fun _ => 0 := funext fun a => by fin_cases a <;> rfl

/-! ## Region 0: blocks of 48 rows of a 48 × 128 array, 1 of them -/

/-- The body's stored value is `sample` of the logits block and the draws block, element by element (the body's two
    same-shape casts are identities). -/
theorem payload0 (u x : Vec Ideal S48x128 .f32) :
    k0_pay1 (F := Ideal) u x = fun j => Cert.Sampling.sample (x j) (u j) := by
  unfold k0_pay1
  simp only [shapeCast_self]
  exact Cert.Sampling.kernel_spelling x u

/-- The printed index maps over the grid: both input windows move with the output window, along rows only. -/
theorem index_facts0 : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2) :=
  (by decide +kernel : ∀ t : Fin grid0.N, _)

/-- Every row block is some grid point's. -/
theorem index_onto0 : ∀ q : Fin 1, ∃ t : Fin cfg0.N, win0_2.index t = ![q.val, 0] :=
  (by decide +kernel : ∀ q : Fin 1, ∃ t : Fin grid0.N, win0_2.index t = ![q.val, 0])

/-- What grid point `t` writes back is block `t` of the array `i ↦ sample (logits i) (draws i)`, the two input arrays
    as the region finds them: an element of a block sits at block index × block size + its place in the block, on
    each axis, and the three windows' block indices agree. -/
theorem flushed0_eq (c : Dev nD) (t : Fin cfg0.N) :
    (dat0 V c).flushed 2 t = ((cfg0.win 2).blk t).view.read (Elt Ideal)
      (fun i => Cert.Sampling.sample (V c main_v0 i) (V c main_v1 i)) := by
  show (cfg0.win 2).cut (grid0.coords t) ((dat0 V c).after 2 t) = _
  rw [after0_2]
  unfold out0_2
  rw [View.canon_unit_zero zeros]
  simp only [View.ld_unit_zero (S := S48x128) zeros]
  rw [payload0]
  obtain ⟨e0, e1, e2, e3⟩ := index_facts0 t
  funext j
  show Cert.Sampling.sample (V c main_v0 (((cfg0.win 0).blk t).view.emb j)) (V c main_v1 (((cfg0.win 1).blk t).view.emb j))
    = Cert.Sampling.sample (V c main_v0 (((cfg0.win 2).blk t).view.emb j)) (V c main_v1 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 48 + 1 * (j 0).val = win0_2.index t (0 : Fin 2) * 48 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 48 + 1 * (j 0).val = win0_2.index t (0 : Fin 2) * 48 + 1 * (j 0).val; omega
    | ⟨1, _⟩ => show win0_1.index t (1 : Fin 2) * 128 + 1 * (j 1).val = win0_2.index t (1 : Fin 2) * 128 + 1 * (j 1).val; omega
  rw [h0, h1]

/-- An index of the array is in point `t`'s block iff each coordinate is in the block's range on its axis. -/
theorem mem_block0 (t : Fin cfg0.N) (i : S48x128.Idx) :
    i ∈ ((cfg0.win 2).blk t).view.set ↔ ∀ a : Fin 2, win0_2.index t a * S48x128.size a ≤ (i a).val
      ∧ (i a).val < win0_2.index t a * S48x128.size a + S48x128.size a := by
  show i ∈ ((View.whole main_v2).slice (win0_2.rect t)).set ↔ _
  rw [View.set_slice_whole, Rect.mem_set_unit]
  exact Iff.rfl

/-- Every index of the array is in some point's block: row `r` is in row block `r / 48`. -/
theorem cover0 (i : S48x128.Idx) :
    ∃ t : Fin cfg0.N, (cfg0.win 2).flush t = true ∧ i ∈ ((cfg0.win 2).blk t).view.set := by
  have hi0 : (i 0).val < 48 := (i 0).isLt
  have hi1 : (i 1).val < 128 := (i 1).isLt
  obtain ⟨t, ht⟩ := index_onto0 ⟨(i 0).val / 48, by omega⟩
  have q0 : win0_2.index t (0 : Fin 2) = (i 0).val / 48 := congrFun ht 0
  have q1 : win0_2.index t (1 : Fin 2) = 0 := congrFun ht 1
  refine ⟨t, flush0_2 t, ?_⟩
  rw [mem_block0]
  intro a
  match a with
  | ⟨0, _⟩ => show win0_2.index t (0 : Fin 2) * 48 ≤ (i 0).val ∧ (i 0).val < win0_2.index t (0 : Fin 2) * 48 + 48; omega
  | ⟨1, _⟩ => show win0_2.index t (1 : Fin 2) * 128 ≤ (i 1).val ∧ (i 1).val < win0_2.index t (1 : Fin 2) * 128 + 128; omega

/-- THE ARRAY after region 0: `sample` of the two input arrays as the region finds them, index by index. -/
theorem array0 (c : Dev nD) :
    (dat0 V c).arrAt 2 cfg0.N = fun i => Cert.Sampling.sample (V c main_v0 i) (V c main_v1 i) :=
  (dat0 V c).arrAt_eq_of_cover 2 _ (fun t _ => flushed0_eq V c t) cover0

/-! ## Region 1: blocks of 256 rows of a 2048 × 128 array, 8 of them -/

/-- The body's stored value is `sample` of the logits block and the draws block, element by element (the body's two
    same-shape casts are identities). -/
theorem payload1 (u x : Vec Ideal S256x128 .f32) :
    k1_pay1 (F := Ideal) u x = fun j => Cert.Sampling.sample (x j) (u j) := by
  unfold k1_pay1
  simp only [shapeCast_self]
  exact Cert.Sampling.kernel_spelling x u

/-- The printed index maps over the grid: both input windows move with the output window, along rows only. -/
theorem index_facts1 : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = win1_2.index t (1 : Fin 2) :=
  (by decide +kernel : ∀ t : Fin grid1.N, _)

/-- Every row block is some grid point's. -/
theorem index_onto1 : ∀ q : Fin 8, ∃ t : Fin cfg1.N, win1_2.index t = ![q.val, 0] :=
  (by decide +kernel : ∀ q : Fin 8, ∃ t : Fin grid1.N, win1_2.index t = ![q.val, 0])

/-- What grid point `t` writes back is block `t` of the array `i ↦ sample (logits i) (draws i)`, the two input arrays
    as the region finds them: an element of a block sits at block index × block size + its place in the block, on
    each axis, and the three windows' block indices agree. -/
theorem flushed1_eq (c : Dev nD) (t : Fin cfg1.N) :
    (dat1 V c).flushed 2 t = ((cfg1.win 2).blk t).view.read (Elt Ideal)
      (fun i => Cert.Sampling.sample (V c main_v4 i) (V c main_v5 i)) := by
  show (cfg1.win 2).cut (grid1.coords t) ((dat1 V c).after 2 t) = _
  rw [after1_2]
  unfold out1_2
  rw [View.canon_unit_zero zeros]
  simp only [View.ld_unit_zero (S := S256x128) zeros]
  rw [payload1]
  obtain ⟨e0, e1, e2, e3⟩ := index_facts1 t
  funext j
  show Cert.Sampling.sample (V c main_v4 (((cfg1.win 0).blk t).view.emb j)) (V c main_v5 (((cfg1.win 1).blk t).view.emb j))
    = Cert.Sampling.sample (V c main_v4 (((cfg1.win 2).blk t).view.emb j)) (V c main_v5 (((cfg1.win 2).blk t).view.emb j))
  have h0 : ((cfg1.win 0).blk t).view.emb j = ((cfg1.win 2).blk t).view.emb j := by
    funext a; apply Fin.ext
    match a with
    | ⟨0, _⟩ => show win1_0.index t (0 : Fin 2) * 256 + 1 * (j 0).val = win1_2.index t (0 : Fin 2) * 256 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb j = ((cfg1.win 2).blk t).view.emb j := by
    funext a; apply Fin.ext
    match a with
    | ⟨0, _⟩ => show win1_1.index t (0 : Fin 2) * 256 + 1 * (j 0).val = win1_2.index t (0 : Fin 2) * 256 + 1 * (j 0).val; omega
    | ⟨1, _⟩ => show win1_1.index t (1 : Fin 2) * 128 + 1 * (j 1).val = win1_2.index t (1 : Fin 2) * 128 + 1 * (j 1).val; omega
  rw [h0, h1]

/-- An index of the array is in point `t`'s block iff each coordinate is in the block's range on its axis. -/
theorem mem_block1 (t : Fin cfg1.N) (i : S2048x128.Idx) :
    i ∈ ((cfg1.win 2).blk t).view.set ↔ ∀ a : Fin 2, win1_2.index t a * S256x128.size a ≤ (i a).val
      ∧ (i a).val < win1_2.index t a * S256x128.size a + S256x128.size a := by
  show i ∈ ((View.whole main_v6).slice (win1_2.rect t)).set ↔ _
  rw [View.set_slice_whole, Rect.mem_set_unit]
  exact Iff.rfl

/-- Every index of the array is in some point's block: row `r` is in row block `r / 256`. -/
theorem cover1 (i : S2048x128.Idx) :
    ∃ t : Fin cfg1.N, (cfg1.win 2).flush t = true ∧ i ∈ ((cfg1.win 2).blk t).view.set := by
  have hi0 : (i 0).val < 2048 := (i 0).isLt
  have hi1 : (i 1).val < 128 := (i 1).isLt
  obtain ⟨t, ht⟩ := index_onto1 ⟨(i 0).val / 256, by omega⟩
  have q0 : win1_2.index t (0 : Fin 2) = (i 0).val / 256 := congrFun ht 0
  have q1 : win1_2.index t (1 : Fin 2) = 0 := congrFun ht 1
  refine ⟨t, flush1_2 t, ?_⟩
  rw [mem_block1]
  intro a
  match a with
  | ⟨0, _⟩ => show win1_2.index t (0 : Fin 2) * 256 ≤ (i 0).val ∧ (i 0).val < win1_2.index t (0 : Fin 2) * 256 + 256; omega
  | ⟨1, _⟩ => show win1_2.index t (1 : Fin 2) * 128 ≤ (i 1).val ∧ (i 1).val < win1_2.index t (1 : Fin 2) * 128 + 128; omega

/-- THE ARRAY after region 1: `sample` of the two input arrays as the region finds them, index by index. -/
theorem array1 (c : Dev nD) :
    (dat1 V c).arrAt 2 cfg1.N = fun i => Cert.Sampling.sample (V c main_v4 i) (V c main_v5 i) :=
  (dat1 V c).arrAt_eq_of_cover 2 _ (fun t _ => flushed1_eq V c t) cover1

end Cert.KernelIdeal.Blocks

end
-- ==== Proof.KernelRun.lean ====
/-
  The whole program's run with EVERY buffer named at the end.

  The program is five segments in order: two reshapes on the host, the first pipelined region, three reshapes, the
  second pipelined region, and a host stretch that reshapes the second region's result and scatters it twice into
  a zero matrix. The contents of the device's buffers at each boundary between segments are a fold through the
  program from the launch memory: a host stretch applies its operations, a region leaves its arrays at what its
  write-backs give and every other buffer as it was. Every weakly fair execution terminates without a fault, and
  in every final state each buffer that outlives the regions holds what that fold gives at the last boundary.
  The two results and the six arguments are then read off that one statement.
-/
import proofs.«109648_j56916906607129_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting,
    and every buffer that outlives the regions ends at the last boundary's contents. The segments, their proof
    data and the thread states between them are the generated ones; the launch deals each core its buffers at the
    launch contents, its generator register and nothing owed; the last thread state is read against the final
    memory, buffer by buffer. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by
        rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b))
          = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- A buffer of the TensorCore that no region scopes, read in a final state of the run: the last boundary's
    contents there. -/
theorem final_at {r : PUnit × MemSt nD τ sig (Elt F)}
    (h : ∀ c : Dev nD, ∀ b ∈ Pipeline.ucRefs τ sig, r.2.mem (((c : Thread nD τ)).1, b) = W5 m ρ c b)
    (c : Dev nD) (b : Ref sig .tc) (hb : ¬ (Proc.devRef .tc b : DevRef τ sig).isScoped) :
    r.2.mem ((c : Thread nD τ).loc b) = W5 m ρ c (Proc.devRef .tc b) :=
  h c _ (mem_uc b hb)

end Cert.KernelIdeal.Whole

end
-- ==== Proof.Scatter.lean ====
/-
  The dense symmetric matrix both programs end with, as ONE function of the edge values and the two index arrays.

  Both programs build the 6144 × 6144 result from a vector `e` of 262144 edge values and two arrays `r`, `c` of
  32-bit indices in the same way: an index below zero is wrapped by adding 6144; the k-th pair (r k, c k) is row k
  of a 262144 × 2 index array; the values are scattered at those pairs into the zero matrix, and then scattered again at
  the transposed pairs (c k, r k) into the result. (The scatter is read as a fold over the updates in order, each
  replacing the cell its pair names when the pair is inside the matrix and dropped when it is not.) Nothing about
  what the scatter does is used: the two programs apply this same chain, so it is enough that they apply it to
  equal edge values and equal index arrays.
-/
import proofs.«109648_j56916906607129_1_alg».proof.Proof.Gen.KernelIdeal
import Idealize.ShloMosaic.PureOps.Ideal

noncomputable section

namespace Cert.KernelIdeal.Whole

open Cert.KernelIdeal Cert.KernelIdeal.Facts₀ Idealize.ShloMosaic

/-- An index array with its negative entries wrapped: `a k + 6144` where `a k < 0`, else `a k`. -/
def wrapped (a : (⟨S262144, .i32⟩ : BufTy).Contents (Elt Ideal)) : (⟨S262144, .i32⟩ : BufTy).Contents (Elt Ideal) :=
  select (cmpi .slt a (broadcastInDim S262144 ![] bcast_S_S262144 (constantI S_ 32 0#32)))
    (addi a (broadcastInDim S262144 ![] bcast_S_S262144 (constantI S_ 32 6144#32))) a

/-- Two index columns side by side: the 262144 × 2 array whose row k is (x k, y k). -/
def sideBySide (x y : (⟨S262144x1, .i32⟩ : BufTy).Contents (Elt Ideal)) :
    (⟨S262144x2, .i32⟩ : BufTy).Contents (Elt Ideal) :=
  concatenate S262144x2 1 [⟨S262144x1, x⟩, ⟨S262144x1, y⟩] concatenates_S262144x1_S262144x1_S262144x2_d1

/-- The programs' own spelling of it, whichever proof of the shapes' fit it carries. -/
theorem sideBySide_eq (x y : (⟨S262144x1, .i32⟩ : BufTy).Contents (Elt Ideal))
    (h : Shape.Concatenates [S262144x1, S262144x1] S262144x2 1) :
    concatenate S262144x2 1 [⟨S262144x1, x⟩, ⟨S262144x1, y⟩] h = sideBySide x y := rfl

/-- The 262144 × 2 array whose row k is the wrapped pair (a k, b k). -/
def pairs (a b : (⟨S262144, .i32⟩ : BufTy).Contents (Elt Ideal)) : (⟨S262144x2, .i32⟩ : BufTy).Contents (Elt Ideal) :=
  sideBySide (broadcastInDim S262144x1 ![0] bcast_S262144_S262144x1_0 (wrapped a))
    (broadcastInDim S262144x1 ![0] bcast_S262144_S262144x1_0 (wrapped b))

/-- The edge values `e` written into the zero matrix at the pairs (r k, c k), then into that at the pairs (c k, r k). -/
def symmetric (e : (⟨S262144, .f32⟩ : BufTy).Contents (Elt Ideal))
    (r c : (⟨S262144, .i32⟩ : BufTy).Contents (Elt Ideal)) : (⟨S6144x6144, .f32⟩ : BufTy).Contents (Elt Ideal) :=
  Host.scatter scatter_S6144x6144_S262144x2_S262144_n_01_01_1 (fun _ b => b)
    (Host.scatter scatter_S6144x6144_S262144x2_S262144_n_01_01_1 (fun _ b => b)
      (broadcastInDim S6144x6144 ![] bcast_S_S6144x6144 (constant (F := Ideal) S_ .f32 0x00000000#32)) (pairs r c) e)
    (pairs c r) e

end Cert.KernelIdeal.Whole

end
-- ==== Proof.LastStretch.lean ====
/-
  The last host stretch, read at the two buffers the results come from.

  After the second region the program runs thirty-nine host operations: it lays the second region's output out
  flat, makes the zero matrix, and twice wraps the negative entries of the two index arrays, pairs them up and
  scatters the flat values at the pairs — the second time at the transposed pairs and into the first scatter's
  result. None of these operations writes the node vector's buffer, so it holds after the stretch what it held
  before. The edge matrix's buffer is written by the last operation; reading each operation's result back through
  the operations before it gives the chain of operations `symmetric` names, applied to the flat layout of the
  second region's output and to the two index arrays as the stretch finds them.
-/
import proofs.«109648_j56916906607129_1_alg».proof.Proof.Gen.KernelIdeal.Frame
import proofs.«109648_j56916906607129_1_alg».proof.Proof.Scatter
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg)

/-- No operation of the last stretch writes the node vector's buffer. -/
theorem last_keeps_nodes (c : Dev nD) :
    W5 m ρ c (Proc.devRef .tc main_v3) = W4 m ρ c (Proc.devRef .tc main_v3) :=
  StableHlo.after_of_forall_not_mem (b := Proc.devRef .tc main_v3) _ _ (List.forall_iff_forall_mem.mp (by
    simp only [hostOps2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide)))

set_option maxHeartbeats 4000000 in
/-- The last stretch builds the edge matrix from the second region's output laid out flat and the two index arrays
    as it finds them: the operations it applies are `symmetric`'s, in order. Each operation's result is read back
    through the operations before it in one pass; the two columns of each pairing are read in a second pass, once
    the pairing is written as a function of its two columns. (The flat layout is read back at the shape the
    buffer's type names, which is the literal one.) -/
theorem last_builds_edges (c : Dev nD) :
    W5 m ρ c (Proc.devRef .tc main_v36)
      = symmetric (shapeCast S262144 (W4 m ρ c (Proc.devRef .tc main_v6)) Gen.shapeCasts_S2048x128_S262144)
          (W4 m ρ c (Proc.devRef .tc main_arg4)) (W4 m ρ c (Proc.devRef .tc main_arg5)) := by
  show StableHlo.after hostOps2 (W4 m ρ c) (Proc.devRef .tc main_v36) = _
  after_results_simp
  rw [sideBySide_eq, sideBySide_eq]
  after_results_simp
  unfold symmetric pairs wrapped
  rfl

end Cert.KernelIdeal.Whole

end
-- ==== Proof.KernelValue.lean ====
/-
  The two results of the program as functions of its arguments.

  The first result is the node vector. The 6144 logits and the 6144 draws are each laid out as 48 rows of 128; the
  first region turns the two layouts into the layout of `sample (logits i) (draws i)`; the result is laid out flat
  again. A change of layout there and back is the identity on the values and commutes with an operation applied
  element by element, so the node vector is `k ↦ sample (logits k) (draws k)`.

  The second result is the edge matrix. The 262144 edge logits and draws go the same way through 2048 rows of 128
  and the second region, giving the edge values `k ↦ sample (logits k) (draws k)`; the last host stretch writes
  them into the zero matrix at the index pairs and at the transposed pairs (`symmetric`).

  Each fact below reads one buffer at one boundary between segments: a host stretch applies its operations to
  the buffers it names and leaves the others, a region leaves its output array at what its blocks tile and every
  other buffer as it was. The arguments are written by nothing, so they are the launch contents at every boundary.
-/
import proofs.«109648_j56916906607129_1_alg».proof.Proof.Blocks
import proofs.«109648_j56916906607129_1_alg».proof.Proof.KernelRun
import proofs.«109648_j56916906607129_1_alg».proof.Proof.Scatter
import proofs.«109648_j56916906607129_1_alg».proof.Proof.LastStretch
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.StableHlo Idealize.SL.Sem
open Cert.Sampling (sample)

variable (m : (ℓ : Loc nD τ sig) → Buf (Elt Ideal) ℓ) (ρ : Dev nD → PrngReg)

/-! ## A change of layout and an elementwise operation -/

/-- Laying out `k ↦ f (a k) (b k)` differently is the same as laying out `a` and `b` and applying `f` there. -/
theorem shapeCast_map2 {s t : Shape} {α β γ : Type} (f : α → β → γ) (a : s.Idx → α) (b : s.Idx → β)
    (h : s.ShapeCasts t) :
    shapeCast t (fun k => f (a k) (b k)) h = fun j => f (shapeCast t a h j) (shapeCast t b h j) := rfl

/-- Two arrays laid out differently, combined element by element there, and the result laid out as they were:
    the arrays combined element by element where they are. -/
theorem layout_round_trip {s t : Shape} {α β γ : Type} (f : α → β → γ) (a : s.Idx → α) (b : s.Idx → β)
    (h : s.ShapeCasts t) (h' : t.ShapeCasts s) :
    shapeCast s (fun i => f (shapeCast t a h i) (shapeCast t b h i)) h' = fun k => f (a k) (b k) := by
  refine (shapeCast_map2 f _ _ h').trans ?_
  rw [shapeCast_shapeCast, shapeCast_shapeCast]

/-! ## The first region: the node vector -/

/-- At the first region's entry its logits array is the first argument laid out as 48 × 128, -/
theorem entry0_logits (c : Dev nD) :
    V1 m ρ c main_v0 = shapeCast S48x128 (m ((c : Thread nD τ).loc main_arg0)) shapeCasts_S6144_S48x128 := by
  show StableHlo.after hostOps0 (W0 m ρ c) (Proc.devRef .tc main_v0) = _
  after_results <;> rfl

/-- and its draws array the third argument laid out the same way. -/
theorem entry0_draws (c : Dev nD) :
    V1 m ρ c main_v1 = shapeCast S48x128 (m ((c : Thread nD τ).loc main_arg2)) shapeCasts_S6144_S48x128 := by
  show StableHlo.after hostOps0 (W0 m ρ c) (Proc.devRef .tc main_v1) = _
  after_results <;> rfl

/-- At the first region's exit its output array holds the samples, in the 48 × 128 layout. -/
theorem exit0_out (c : Dev nD) :
    W2 m ρ c (Proc.devRef .tc main_v2) = fun i => sample (V1 m ρ c main_v0 i) (V1 m ρ c main_v1 i) :=
  (W2_arr m ρ c 2).trans (Blocks.array0 (V1 m ρ) c)

/-- The node vector at the second region's entry: the first region's output laid out flat, -/
theorem entry1_nodes (c : Dev nD) :
    W3 m ρ c (Proc.devRef .tc main_v3)
      = shapeCast S6144 (W2 m ρ c (Proc.devRef .tc main_v2)) shapeCasts_S48x128_S6144 := by
  show StableHlo.after hostOps1 (W2 m ρ c) (Proc.devRef .tc main_v3) = _
  after_results <;> rfl

/-- which the second region leaves as it is (it is none of that region's arrays), and the last host stretch too. -/
theorem final_nodes_eq (c : Dev nD) :
    W5 m ρ c (Proc.devRef .tc main_v3) = W3 m ρ c (Proc.devRef .tc main_v3) :=
  (last_keeps_nodes m ρ c).trans (W4_of_ne m ρ c main_v3 (by decide))

/-- THE NODE VECTOR after the run: `sample` of the first and third arguments, index by index. -/
theorem final_nodes (c : Dev nD) :
    W5 m ρ c (Proc.devRef .tc main_v3)
      = fun k => sample (m ((c : Thread nD τ).loc main_arg0) k) (m ((c : Thread nD τ).loc main_arg2) k) := by
  rw [final_nodes_eq, entry1_nodes, exit0_out, entry0_logits, entry0_draws]
  exact layout_round_trip sample _ _ _ _

/-! ## The second region: the edge values -/

/-- The second and fourth arguments are untouched up to the first region's exit. -/
theorem exit0_arg1 (c : Dev nD) : W2 m ρ c (Proc.devRef .tc main_arg1) = m ((c : Thread nD τ).loc main_arg1) := by
  rw [W2_of_ne m ρ c main_arg1 (by decide)]
  show StableHlo.after hostOps0 (W0 m ρ c) (Proc.devRef .tc main_arg1) = _
  after_results <;> rfl
theorem exit0_arg3 (c : Dev nD) : W2 m ρ c (Proc.devRef .tc main_arg3) = m ((c : Thread nD τ).loc main_arg3) := by
  rw [W2_of_ne m ρ c main_arg3 (by decide)]
  show StableHlo.after hostOps0 (W0 m ρ c) (Proc.devRef .tc main_arg3) = _
  after_results <;> rfl

/-- At the second region's entry its logits array is the second argument laid out as 2048 × 128, -/
theorem entry1_logits (c : Dev nD) :
    V3 m ρ c main_v4 = shapeCast S2048x128 (m ((c : Thread nD τ).loc main_arg1)) shapeCasts_S262144_S2048x128 := by
  rw [← exit0_arg1 m ρ c]
  show StableHlo.after hostOps1 (W2 m ρ c) (Proc.devRef .tc main_v4) = _
  after_results <;> rfl

/-- and its draws array the fourth argument laid out the same way. -/
theorem entry1_draws (c : Dev nD) :
    V3 m ρ c main_v5 = shapeCast S2048x128 (m ((c : Thread nD τ).loc main_arg3)) shapeCasts_S262144_S2048x128 := by
  rw [← exit0_arg3 m ρ c]
  show StableHlo.after hostOps1 (W2 m ρ c) (Proc.devRef .tc main_v5) = _
  after_results <;> rfl

/-- At the second region's exit its output array holds the samples, in the 2048 × 128 layout. -/
theorem exit1_out (c : Dev nD) :
    W4 m ρ c (Proc.devRef .tc main_v6) = fun i => sample (V3 m ρ c main_v4 i) (V3 m ρ c main_v5 i) :=
  (W4_arr m ρ c 2).trans (Blocks.array1 (V3 m ρ) c)

/-- THE EDGE VALUES: the second region's output laid out flat is `sample` of the second and fourth arguments. -/
theorem edge_values (c : Dev nD) :
    shapeCast S262144 (W4 m ρ c (Proc.devRef .tc main_v6)) shapeCasts_S2048x128_S262144
      = fun k => sample (m ((c : Thread nD τ).loc main_arg1) k) (m ((c : Thread nD τ).loc main_arg3) k) := by
  rw [exit1_out, entry1_logits, entry1_draws]
  exact layout_round_trip sample _ _ _ _

/-! ## The last host stretch: the edge matrix -/

/-- The two index arguments are untouched up to the second region's exit. -/
theorem exit1_arg4 (c : Dev nD) : W4 m ρ c (Proc.devRef .tc main_arg4) = m ((c : Thread nD τ).loc main_arg4) := by
  rw [W4_of_ne m ρ c main_arg4 (by decide)]
  have h2 : W2 m ρ c (Proc.devRef .tc main_arg4) = m ((c : Thread nD τ).loc main_arg4) := by
    rw [W2_of_ne m ρ c main_arg4 (by decide)]
    show StableHlo.after hostOps0 (W0 m ρ c) (Proc.devRef .tc main_arg4) = _
    after_results <;> rfl
  rw [← h2]
  show StableHlo.after hostOps1 (W2 m ρ c) (Proc.devRef .tc main_arg4) = _
  after_results <;> rfl
theorem exit1_arg5 (c : Dev nD) : W4 m ρ c (Proc.devRef .tc main_arg5) = m ((c : Thread nD τ).loc main_arg5) := by
  rw [W4_of_ne m ρ c main_arg5 (by decide)]
  have h2 : W2 m ρ c (Proc.devRef .tc main_arg5) = m ((c : Thread nD τ).loc main_arg5) := by
    rw [W2_of_ne m ρ c main_arg5 (by decide)]
    show StableHlo.after hostOps0 (W0 m ρ c) (Proc.devRef .tc main_arg5) = _
    after_results <;> rfl
  rw [← h2]
  show StableHlo.after hostOps1 (W2 m ρ c) (Proc.devRef .tc main_arg5) = _
  after_results <;> rfl

/-- THE EDGE MATRIX after the run: the samples of the second and fourth arguments, written symmetrically at the
    index pairs the fifth and sixth arguments give. -/
theorem final_edges (c : Dev nD) :
    W5 m ρ c (Proc.devRef .tc main_v36)
      = symmetric (fun k => sample (m ((c : Thread nD τ).loc main_arg1) k) (m ((c : Thread nD τ).loc main_arg3) k))
          (m ((c : Thread nD τ).loc main_arg4)) (m ((c : Thread nD τ).loc main_arg5)) := by
  rw [last_builds_edges, edge_values, exit1_arg4, exit1_arg5]
  rfl

/-! ## The run, read -/

/-- Every weakly fair execution of the program terminates, nothing faulting, with the node vector and the edge
    matrix at those functions of the arguments and the arguments as launched. -/
theorem run : θ_run defs (onTc (τ := τ) (main (F := Ideal))) ⟨m, fun _ => 0, ρ⟩ (fun r => ∀ c : Dev nD,
      r.2.mem ((c : Thread nD τ).loc main_v3)
        = (fun k => sample (m ((c : Thread nD τ).loc main_arg0) k) (m ((c : Thread nD τ).loc main_arg2) k))
      ∧ r.2.mem ((c : Thread nD τ).loc main_v36)
        = symmetric (fun k => sample (m ((c : Thread nD τ).loc main_arg1) k) (m ((c : Thread nD τ).loc main_arg3) k))
            (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun r h c =>
    ⟨(final_at m ρ h c main_v3 (by decide)).trans (final_nodes m ρ c),
     (final_at m ρ h c main_v36 (by decide)).trans (final_edges m ρ c),
     (final_at m ρ h c main_arg0 (by decide)).trans (W5_main_arg0 m ρ c),
     (final_at m ρ h c main_arg1 (by decide)).trans (W5_main_arg1 m ρ c),
     (final_at m ρ h c main_arg2 (by decide)).trans (W5_main_arg2 m ρ c),
     (final_at m ρ h c main_arg3 (by decide)).trans (W5_main_arg3 m ρ c),
     (final_at m ρ h c main_arg4 (by decide)).trans (W5_main_arg4 m ρ c),
     (final_at m ρ h c main_arg5 (by decide)).trans (W5_main_arg5 m ρ c)⟩)
    (run_all m ρ)

end Cert.KernelIdeal.Whole

end
-- ==== Proof.RefValue.lean ====
/-
  The reference's two results as the same functions of its arguments as the kernel's.

  The reference computes the node vector and the edge values flat, with no change of layout, each as its own chain
  of host operations on the logits and the draws: negations written as negations and the logistic written out. That
  chain is `sample` element by element (`Cert.Sampling.reference_spelling`). It then builds the edge matrix from the
  edge values and the two index arrays by the same operations, in the same order, as the kernel's program does after
  its second region: wrap the negative indices, pair them, scatter into zeros, scatter again at the transposed
  pairs. So its edge matrix is `symmetric` of its edge values and its index arrays, by unfolding the definitions:
  the two programs' shape records and side conditions are the same statements, spelt once per program.
-/
import proofs.«109648_j56916906607129_1_alg».proof.Proof.Gen.ReferenceIdeal.Run
import proofs.«109648_j56916906607129_1_alg».proof.Proof.Sample
import proofs.«109648_j56916906607129_1_alg».proof.Proof.Scatter

set_option maxRecDepth 16384

noncomputable section

namespace Cert.ReferenceIdeal.RefValue

open Cert.ReferenceIdeal Cert.ReferenceIdeal.Facts₀ Idealize.ShloMosaic
open Cert.Sampling (sample)

/-- The reference's node vector: `sample` of the logits and the draws, index by index. -/
theorem nodes (x u : FVec Ideal S6144 .f32) :
    Host.divf (broadcastInDim S6144 ![] bcast_S_S6144 (constant S_ .f32 0x3F800000#32)) (addf (broadcastInDim
    S6144 ![] bcast_S_S6144 (constant S_ .f32 0x3F800000#32)) (Host.exp (Host.negf (Host.divf (addf x (Host.negf
    (Host.log (addf (Host.negf (Host.log (addf u (broadcastInDim S6144 ![] bcast_S_S6144 (constant S_ .f32
    0x2EDBE6FF#32))))) (broadcastInDim S6144 ![] bcast_S_S6144 (constant S_ .f32 0x2EDBE6FF#32))))))
    (broadcastInDim S6144 ![] bcast_S_S6144 (constant S_ .f32 0x3F800000#32))))))
      = fun k => sample (x k) (u k) :=
  Cert.Sampling.reference_spelling bcast_S_S6144 x u

/-- The reference's edge values: `sample` of the edge logits and the edge draws, index by index. -/
theorem edge_values (x u : FVec Ideal S262144 .f32) :
    Host.divf (broadcastInDim S262144 ![] bcast_S_S262144 (constant S_ .f32 0x3F800000#32)) (addf
    (broadcastInDim S262144 ![] bcast_S_S262144 (constant S_ .f32 0x3F800000#32)) (Host.exp (Host.negf
    (Host.divf (addf x (Host.negf (Host.log (addf (Host.negf (Host.log (addf u (broadcastInDim S262144 ![]
    bcast_S_S262144 (constant S_ .f32 0x2EDBE6FF#32))))) (broadcastInDim S262144 ![] bcast_S_S262144 (constant
    S_ .f32 0x2EDBE6FF#32)))))) (broadcastInDim S262144 ![] bcast_S_S262144 (constant S_ .f32
    0x3F800000#32))))))
      = fun k => sample (x k) (u k) :=
  Cert.Sampling.reference_spelling bcast_S_S262144 x u

/-- The reference's edge matrix: its edge values written symmetrically at the index pairs, by the kernel program's
    own chain of operations. -/
theorem edges (x u : FVec Ideal S262144 .f32) (r c : (⟨S262144, .i32⟩ : BufTy).Contents (Elt Ideal)) :
    Host.scatter scatter_S6144x6144_S262144x2_S262144_n_01_01_1 (fun _ b => b) (Host.scatter
    scatter_S6144x6144_S262144x2_S262144_n_01_01_1 (fun _ b => b) (broadcastInDim S6144x6144 ![]
    bcast_S_S6144x6144 (constant S_ .f32 0x00000000#32)) (concatenate S262144x2 1 [⟨S262144x1, (broadcastInDim
    S262144x1 ![0] bcast_S262144_S262144x1_0 (select (cmpi .slt r (broadcastInDim S262144 ![] bcast_S_S262144
    (constantI S_ 32 0#32))) (addi r (broadcastInDim S262144 ![] bcast_S_S262144 (constantI S_ 32 6144#32)))
    r))⟩, ⟨S262144x1, (broadcastInDim S262144x1 ![0] bcast_S262144_S262144x1_0 (select (cmpi .slt c
    (broadcastInDim S262144 ![] bcast_S_S262144 (constantI S_ 32 0#32))) (addi c (broadcastInDim S262144 ![]
    bcast_S_S262144 (constantI S_ 32 6144#32))) c))⟩] concatenates_S262144x1_S262144x1_S262144x2_d1) (Host.divf
    (broadcastInDim S262144 ![] bcast_S_S262144 (constant S_ .f32 0x3F800000#32)) (addf (broadcastInDim S262144
    ![] bcast_S_S262144 (constant S_ .f32 0x3F800000#32)) (Host.exp (Host.negf (Host.divf (addf x (Host.negf
    (Host.log (addf (Host.negf (Host.log (addf u (broadcastInDim S262144 ![] bcast_S_S262144 (constant S_ .f32
    0x2EDBE6FF#32))))) (broadcastInDim S262144 ![] bcast_S_S262144 (constant S_ .f32 0x2EDBE6FF#32))))))
    (broadcastInDim S262144 ![] bcast_S_S262144 (constant S_ .f32 0x3F800000#32)))))))) (concatenate S262144x2 1
    [⟨S262144x1, (broadcastInDim S262144x1 ![0] bcast_S262144_S262144x1_0 (select (cmpi .slt c (broadcastInDim
    S262144 ![] bcast_S_S262144 (constantI S_ 32 0#32))) (addi c (broadcastInDim S262144 ![] bcast_S_S262144
    (constantI S_ 32 6144#32))) c))⟩, ⟨S262144x1, (broadcastInDim S262144x1 ![0] bcast_S262144_S262144x1_0
    (select (cmpi .slt r (broadcastInDim S262144 ![] bcast_S_S262144 (constantI S_ 32 0#32))) (addi r
    (broadcastInDim S262144 ![] bcast_S_S262144 (constantI S_ 32 6144#32))) r))⟩]
    concatenates_S262144x1_S262144x1_S262144x2_d1) (Host.divf (broadcastInDim S262144 ![] bcast_S_S262144
    (constant S_ .f32 0x3F800000#32)) (addf (broadcastInDim S262144 ![] bcast_S_S262144 (constant S_ .f32
    0x3F800000#32)) (Host.exp (Host.negf (Host.divf (addf x (Host.negf (Host.log (addf (Host.negf (Host.log
    (addf u (broadcastInDim S262144 ![] bcast_S_S262144 (constant S_ .f32 0x2EDBE6FF#32))))) (broadcastInDim
    S262144 ![] bcast_S_S262144 (constant S_ .f32 0x2EDBE6FF#32)))))) (broadcastInDim S262144 ![]
    bcast_S_S262144 (constant S_ .f32 0x3F800000#32)))))))
      = Cert.KernelIdeal.Whole.symmetric (fun k => sample (x k) (u k)) r c := by
  rw [edge_values x u]
  rfl

end Cert.ReferenceIdeal.RefValue

end
-- ==== Proof.lean ====
/-
  The kernel and its reference compute the same two results on the extended reals.

  Both programs take node logits and node draws (6144 each), edge logits and edge draws (262144 each) and two
  arrays of 262144 indices. Both return the node vector `k ↦ sample (logits k) (draws k)` and the 6144 × 6144 matrix
  obtained by writing the edge values `k ↦ sample (logits k) (draws k)` into the zero matrix at the index pairs and
  then at the transposed pairs, where `sample x u = σ((x + g) / 1)`, `g = -log(-log(u + ε) + ε)`.

  The kernel's program lays each pair of vectors out as rows of 128, runs one pipelined region per pair (one block
  of 48 rows; eight blocks of 256 rows) whose body computes `sample` element by element, lays the results out flat
  again, and builds the matrix on the host. The reference computes everything flat on the host. The two differ in
  how they spell a negation (a difference from zero; a negation) and the logistic (one operation; its expansion),
  which denote the same functions on the extended reals at every argument, and in the layout, which a change of
  layout there and back undoes. The matrix is built by the same operations in the same order on both sides, so
  nothing about the scatter itself is used. No step needs the inputs to be finite, so the precondition is not opened.

  The three frame claims: the two kernel programs' are the generated frame certificates; the reference has no
  kernel, and its frame is its run with the results forgotten. The idealization rewrote nothing, so `preserves` is
  the true proposition.
-/
import proofs.«109648_j56916906607129_1_alg».proof.Defs
import proofs.«109648_j56916906607129_1_alg».proof.Proof.Gen.Kernel
import proofs.«109648_j56916906607129_1_alg».proof.Proof.Gen.Kernel.Frame
import proofs.«109648_j56916906607129_1_alg».proof.Proof.Gen.KernelIdeal
import proofs.«109648_j56916906607129_1_alg».proof.Proof.Gen.KernelIdeal.Frame
import proofs.«109648_j56916906607129_1_alg».proof.Proof.Gen.ReferenceIdeal
import proofs.«109648_j56916906607129_1_alg».proof.Proof.Gen.Pre_finite_inputs
import proofs.«109648_j56916906607129_1_alg».proof.Proof.Gen.ReferenceIdeal.Run
import proofs.«109648_j56916906607129_1_alg».proof.Proof.KernelValue
import proofs.«109648_j56916906607129_1_alg».proof.Proof.RefValue

noncomputable section

namespace Cert.Proof

open Idealize.ShloMosaic Idealize.ShloMosaic.TcCoe Idealize.SL.Sem
open Cert.Sampling (sample)

theorem frame_kernel : Cert.frame_Kernel := fun m ρ _ => Cert.Kernel.Gen.frame m ρ

theorem frame_kernelIdeal : Cert.frame_KernelIdeal := fun m ρ _ => Cert.KernelIdeal.Gen.frame m ρ

/-- The reference's run names both results and keeps the arguments; its frame forgets the results. -/
theorem frame_referenceIdeal : Cert.frame_ReferenceIdeal := fun m ρ _ =>
  (θ_run Cert.ReferenceIdeal.defs _ _).mono (fun _ h c => (h c).2.2)
    (Cert.ReferenceIdeal.Value.run (F := Ideal) m ρ)

/-- The idealization rewrote no operation. -/
theorem preserves : Cert.preserves_Kernel_KernelIdeal := trivial

/-- From memories that agree on the six arguments, the kernel's program ends with the node vector and the edge
    matrix at `sample` of its logits and draws (the kernel's run, read), and the reference ends with its own
    chains of host operations on ITS arguments — the same arrays, so the same two functions of them. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.2.1]
    exact Cert.ReferenceIdeal.RefValue.nodes _ _
  · rw [(hagree c).2.1, (hagree c).2.2.2.1, (hagree c).2.2.2.2.1, (hagree c).2.2.2.2.2]
    exact Cert.ReferenceIdeal.RefValue.edges _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
